-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S2000x64 : Shape := ⟨2, ![2000, 64]⟩
abbrev S2000x1 : Shape := ⟨2, ![2000, 1]⟩

abbrev nBuf : Space → Nat
  | .hbm => 33
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S64x64, .f32⟩
  | .hbm, ⟨30, _⟩ => ⟨S64x64, .f32⟩
  | .hbm, ⟨31, _⟩ => ⟨S1x64, .f32⟩
  | .hbm, ⟨32, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v13) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S64x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageLayer.lean ====
/-
  One graph-convolution layer with mean aggregation, entry by entry, over the extended reals.

  For node r and output feature c the layer is

      max( ( ∑ₖ (agg(r,k) / max(cnt(r), 1)) · W_l(c,k) + b(c) ) + ∑ₖ x(r,k) · W_r(c,k) , 0 )

  where agg(r,·) is the sum of the neighbours' feature rows and cnt(r) the number of neighbours. The entry depends on
  node r only through its aggregated row, its neighbour count and its own feature row, and on c only through row c of
  each weight matrix and entry c of the bias: `cell` is that function of those six pieces, and `layer` is `cell` at
  every (r, c). The two programs compared both compute `cell` with the same association of the two sums and the
  bias, so no law of the extended reals is needed to join them: the whole comparison is which entries of which
  arrays each side reads.
-/
import Idealize.ShloMosaic.PureOps.Ideal
import Idealize.ShloMosaic.Lib.ValueIdx

noncomputable section

namespace Cert.SageLayer

open Idealize.ShloMosaic Idealize.ShloMosaic.ValueIdx

/-- The number one, as the binary word both programs print for it. -/
abbrev one : EReal := Ideal.ofBits .f32 0x3F800000#32

/-- The number zero, as the binary word both programs print for it. -/
abbrev zero : EReal := Ideal.ofBits .f32 0x00000000#32

/-- One entry of the layer from one node's data and one output feature's parameters: `a` the node's aggregated row,
    `d` its neighbour count, `u` its own row, `wl` and `wr` the feature's rows of the two weight matrices, `β` its
    bias. The mean divides by max(d, 1); the aggregated term and the bias are added first, the root term last. -/
def cell (a : Fin 64 → EReal) (d : EReal) (u : Fin 64 → EReal) (wl wr : Fin 64 → EReal) (β : EReal) : EReal :=
  max (((∑ k : Fin 64, Ideal.div (a k) (max d one) * wl k) + β) + ∑ k : Fin 64, u k * wr k) zero

/-- Cells of equal pieces are equal. -/
theorem cell_congr {a a' : Fin 64 → EReal} {d d' : EReal} {u u' wl wl' wr wr' : Fin 64 → EReal} {β β' : EReal}
    (ha : a = a') (hd : d = d') (hu : u = u') (hwl : wl = wl') (hwr : wr = wr') (hβ : β = β') :
    cell a d u wl wr β = cell a' d' u' wl' wr' β' := by
  subst ha hd hu hwl hwr hβ; rfl

/-- The layer on 100000 nodes and 64 features: `cell` at every (node, feature). -/
def layer (agg : FVec Ideal ⟨2, ![100000, 64]⟩ .f32) (cnt : FVec Ideal ⟨1, ![100000]⟩ .f32)
    (x : FVec Ideal ⟨2, ![100000, 64]⟩ .f32) (Wl : FVec Ideal ⟨2, ![64, 64]⟩ .f32) (b : FVec Ideal ⟨1, ![64]⟩ .f32)
    (Wr : FVec Ideal ⟨2, ![64, 64]⟩ .f32) : FVec Ideal ⟨2, ![100000, 64]⟩ .f32 := fun i =>
  cell (fun k => agg (ix2 (i 0) k)) (cnt (ix1 (i 0))) (fun k => x (ix2 (i 0) k))
    (fun k => Wl (ix2 (i 1) k)) (fun k => Wr (ix2 (i 1) k)) (b (ix1 (i 1)))

/-- The layer at (r, c). -/
theorem layer_apply (agg : FVec Ideal ⟨2, ![100000, 64]⟩ .f32) (cnt : FVec Ideal ⟨1, ![100000]⟩ .f32)
    (x : FVec Ideal ⟨2, ![100000, 64]⟩ .f32) (Wl : FVec Ideal ⟨2, ![64, 64]⟩ .f32) (b : FVec Ideal ⟨1, ![64]⟩ .f32)
    (Wr : FVec Ideal ⟨2, ![64, 64]⟩ .f32) (r : Fin 100000) (c : Fin 64) :
    layer agg cnt x Wl b Wr (ix2 r c) = cell (fun k => agg (ix2 r k)) (cnt (ix1 r)) (fun k => x (ix2 r k))
      (fun k => Wl (ix2 c k)) (fun k => Wr (ix2 c k)) (b (ix1 c)) := rfl

end Cert.SageLayer

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.KernelPayload.lean ====
/-
  What the kernel body stores for one block of 2000 nodes, read at an entry.

  The body loads the block's aggregated rows, neighbour counts (a column) and feature rows, the two transposed weight
  matrices and the bias (a row), and stores max((mean · W_lᵀ + bias) + x · W_rᵀ, 0), where mean = agg / max(cnt, 1)
  with the count column spread along the rows, and each product is a matrix product into a zero accumulator. The
  changes of float format before the products are the identity on the extended reals. So the stored entry (p, c) is
  the layer's `cell` of row p of the block's aggregated rows, entry p of its counts, row p of its feature rows,
  column c of each transposed weight matrix and entry c of the bias row.
-/
import proofs.«138229_j55783035240592_2_alg».proof.Proof.Gen.KernelIdeal.Skeleton
import proofs.«138229_j55783035240592_2_alg».proof.Proof.SageLayer
import proofs.«138229_j55783035240592_2_alg».proof.Proof.LibPlainDot
import proofs.«138229_j55783035240592_2_alg».proof.Proof.LibKeepdimsLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx
open Cert.SageLayer (cell one zero)

/-- The body's dimension numbers are those of a plain [2000, 64] × [64, 64] product. -/
theorem dot_plain : dot_S2000x64_S64x64_S2000x64_1_0_0_1_n_n
    = Cert.LibPlainDot.dims (M := 2000) (K := 64) (N := 64) Facts₀.dot_S2000x64_S64x64_S2000x64_1_0_0_1_n_n_wf := rfl

/-- The mean's entry (p, k): the aggregated entry over the larger of the node's count and one. -/
theorem mean_apply (cntB : FVec Ideal S2000x1 .f32) (aggB : FVec Ideal S2000x64 .f32) (p : Fin 2000) (k : Fin 64) :
    divf aggB (broadcastTo S2000x64 (maximumf cntB (broadcast S2000x1 (FloatOps.ofBits (F := Ideal) .f32 0x3F800000#32)))
        Facts₀.broadcasts_S2000x1_S2000x64) (ix2 p k)
      = Ideal.div (aggB (ix2 p k)) (max (cntB (ix2 p (0 : Fin 1))) one) := by
  rw [divf_apply, Cert.KernelIdeal.Val.broadcastTo_a1_ab_apply, maximumf_apply, broadcast_apply]
  rfl

/-- The bias row spread over the block's rows reads the row's entry c. -/
theorem bias_apply (bR : FVec Ideal S1x64 .f32) (p : Fin 2000) (c : Fin 64) :
    broadcastTo S2000x64 (shapeCast S1x64 bR Facts₀.shapeCasts_S1x64_S1x64) Facts₀.broadcasts_S1x64_S2000x64 (ix2 p c)
      = bR (ix2 (0 : Fin 1) c) := by
  rw [shapeCast_self, broadcastTo_1b_ab_apply]

/-- THE STORED ENTRY: the body's payload at (p, c) is the layer's cell of the block's row p and the parameters' column c. -/
theorem payload_apply (cntB : FVec Ideal S2000x1 .f32) (aggB xB : FVec Ideal S2000x64 .f32) (WlT WrT : FVec Ideal S64x64 .f32)
    (bR : FVec Ideal S1x64 .f32) (p : Fin 2000) (c : Fin 64) :
    k0_pay1 (F := Ideal) cntB aggB xB WlT WrT bR (ix2 p c)
      = cell (fun k => aggB (ix2 p k)) (cntB (ix2 p (0 : Fin 1))) (fun k => xB (ix2 p k))
          (fun k => WlT (ix2 k c)) (fun k => WrT (ix2 k c)) (bR (ix2 (0 : Fin 1) c)) := by
  unfold k0_pay1 cell
  rw [maximumf_apply, addf_apply, addf_apply, broadcast_apply, bias_apply]
  simp only [matmul]
  rw [dot_plain, Cert.LibPlainDot.matmul_zero_apply, Cert.LibPlainDot.matmul_zero_apply]
  simp only [truncf_apply, shapeCast_self]
  simp only [mean_apply]
  rfl

end Cert.KernelIdeal.Block

end
-- ==== Proof.Aggregation.lean ====
/-
  The aggregation both programs share.

  Before anything else both programs take the two rows of the edge list as sources and targets, wrap negative source
  indices, gather the sources' feature rows, and scatter-add them — and a vector of ones — into the targets: the
  aggregated rows and the neighbour counts. The two programs spell this with the same operations in the same order,
  so the arrays the kernel finds are the reference's two scatter-add stages of the same arguments, operation for
  operation; the gather and the scatter-adds are never read at an index.
-/
import proofs.«138229_j55783035240592_2_alg».proof.Proof.Gen.KernelIdeal.Frame
import proofs.«138229_j55783035240592_2_alg».proof.Proof.Gen.ReferenceIdeal.Read
import Idealize.ShloMosaic.Lib.StableHlo.Run

noncomputable section

namespace Cert.KernelIdeal.Aggregation

open Cert.KernelIdeal Cert.KernelIdeal.Gen Idealize.ShloMosaic Idealize.ShloMosaic.TcCoe Idealize.SL.Sem

variable (m : (ℓ : Loc nD τ sig) → Buf (Elt Ideal) ℓ)

/-- The aggregated rows the kernel finds are the reference's, of the same features and edges. -/
theorem aggregated_eq (c : Dev nD) : (V m c main_v13 : S100000x64.Idx → EReal)
    = Cert.ReferenceIdeal.Read.val_main_v13 (F := Ideal) (m ((c : Thread nD τ).loc main_arg0)) (m ((c : Thread nD τ).loc main_arg1)) := by
  dsimp only [Gen.V, Gen.hostOps0]; after_results <;> rfl

/-- The count column the kernel finds is the reference's neighbour counts, of the same edges, made a column. -/
theorem counts_column (c : Dev nD) : (V m c main_v18 : S100000x1.Idx → EReal)
    = shapeCast S100000x1 (Cert.ReferenceIdeal.Read.val_main_v17 (F := Ideal) (m ((c : Thread nD τ).loc main_arg1)))
        Facts₀.shapeCasts_S100000_S100000x1 := by
  dsimp only [Gen.V, Gen.hostOps0]; after_results <;> rfl

end Cert.KernelIdeal.Aggregation

end
-- ==== Proof.HostArrays.lean ====
/-
  The parameter arrays the host prepares for the kernel, read at an index.

  Before the kernel the host makes the neighbour counts a column, transposes each weight matrix and makes the bias a
  row. So the column's entry (r, 0) is count r, each transpose's entry (k, j) is the weights' entry (j, k), and the
  row's entry (0, j) is bias j.
-/
import proofs.«138229_j55783035240592_2_alg».proof.Proof.Gen.KernelIdeal.Frame
import proofs.«138229_j55783035240592_2_alg».proof.Proof.Aggregation
import proofs.«138229_j55783035240592_2_alg».proof.Proof.LibKeepdimsLayout
import Idealize.ShloMosaic.Lib.ValueIdx
import Idealize.ShloMosaic.Lib.ValueLayout
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The count column's entry (r, 0) is node r's count. -/
theorem count_apply (c : Dev nD) (r : Fin 100000) :
    (V m c main_v18 : S100000x1.Idx → EReal) (ix2 r (0 : Fin 1))
      = Cert.ReferenceIdeal.Read.val_main_v17 (F := Ideal) (m ((c : Thread nD τ).loc main_arg1)) (ix1 r) :=
  (congrFun (Cert.KernelIdeal.Aggregation.counts_column m c) _).trans (Cert.KernelIdeal.Val.shapeCast_a_a1_apply _ _ r 0)

/-- The left weights the kernel finds are the argument transposed. -/
theorem left_transposed (c : Dev nD) : (V m c main_v19 : S64x64.Idx → EReal)
    = transpose S64x64 [1, 0] (m ((c : Thread nD τ).loc main_arg2) : S64x64.Idx → EReal) Facts₀.transposes_S64x64_S64x64_1_0 := by
  dsimp only [Gen.V, Gen.hostOps0]; after_results <;> rfl

/-- Their entry (k, j) is the argument's entry (j, k). -/
theorem left_apply (c : Dev nD) (k j : Fin 64) :
    (V m c main_v19 : S64x64.Idx → EReal) (ix2 k j) = (m ((c : Thread nD τ).loc main_arg2) : S64x64.Idx → EReal) (ix2 j k) :=
  (congrFun (left_transposed m c) _).trans (transpose_ix2_apply _ _ k j)

/-- The right weights the kernel finds are the argument transposed. -/
theorem right_transposed (c : Dev nD) : (V m c main_v20 : S64x64.Idx → EReal)
    = transpose S64x64 [1, 0] (m ((c : Thread nD τ).loc main_arg4) : S64x64.Idx → EReal) Facts₀.transposes_S64x64_S64x64_1_0 := by
  dsimp only [Gen.V, Gen.hostOps0]; after_results <;> rfl

/-- Their entry (k, j) is the argument's entry (j, k). -/
theorem right_apply (c : Dev nD) (k j : Fin 64) :
    (V m c main_v20 : S64x64.Idx → EReal) (ix2 k j) = (m ((c : Thread nD τ).loc main_arg4) : S64x64.Idx → EReal) (ix2 j k) :=
  (congrFun (right_transposed m c) _).trans (transpose_ix2_apply _ _ k j)

/-- The bias row the kernel finds is the bias made a row. -/
theorem bias_row (c : Dev nD) : (V m c main_v21 : S1x64.Idx → EReal)
    = shapeCast S1x64 (m ((c : Thread nD τ).loc main_arg3) : S64.Idx → EReal) Facts₀.shapeCasts_S64_S1x64 := by
  dsimp only [Gen.V, Gen.hostOps0]; after_results <;> rfl

/-- Its entry (0, j) is bias j. -/
theorem bias_apply (c : Dev nD) (j : Fin 64) :
    (V m c main_v21 : S1x64.Idx → EReal) (ix2 (0 : Fin 1) j) = (m ((c : Thread nD τ).loc main_arg3) : S64.Idx → EReal) (ix1 j) :=
  (congrFun (bias_row m c) _).trans (shapeCast_a_1a_apply _ _ 0 j)

end Cert.KernelIdeal.HostArrays

end
-- ==== Proof.BlockReads.lean ====
/-
  The kernel's windows, block by block.

  The kernel runs over 50 grid points; point t works on nodes 2000·t … 2000·t + 1999. The three row-tiled inputs (the
  aggregated rows, the count column, the feature rows) and the output are at block (t, 0) at point t; the two
  transposed weight matrices and the bias row are read whole at every point. Read through a window, entry (p, k) of
  point t's block of any array is the array's entry (2000·t + p, k) — or (p, k) itself for the three whole-array
  windows. Since the output's block at point t is rows 2000·t … 2000·t + 1999, a store whose entry (p, q) is G at
  (2000·t + p, q) writes back point t's block of G, and row r lies in the block of point r / 2000, so the blocks
  cover the output array. Nothing here mentions what the arrays hold.
-/
import proofs.«138229_j55783035240592_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

/-- The printed index maps over the grid: the three row-tiled inputs and the output are at block (t, 0) at point t,
    the three parameter arrays at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Node 2000·t + p: row p of point t's blocks. -/
def node (t : Fin cfg0.N) (p : Fin 2000) : Fin 100000 :=
  ⟨2000 * t.val + p.val, by have ht := t.isLt; have hp := p.isLt; have hN : cfg0.N = 50 := N_0; omega⟩

/-! Each window's block of ANY array X of the window's shape, at explicit coordinates. -/

/-- Window 0 (2000 rows of a [100000, 64] array): row p of point t's block is row 2000·t + p. -/
theorem read_rows0 (t : Fin cfg0.N) (X : S100000x64.Idx → EReal) (p : Fin 2000) (k : Fin 64) :
    (((cfg0.win 0).blk t).view.read (Elt Ideal) X : Vec Ideal S2000x64 .f32) (ix2 p k) = X (ix2 (node t p) k) := by
  obtain ⟨e0, e1, -⟩ := block_indices t
  rw [View.read_apply]
  show X _ = X _
  refine congrArg X (funext fun a => Fin.ext ?_)
  match a with
  | ⟨0, _⟩ => show win0_0.index t (0 : Fin 2) * 2000 + 1 * p.val = 2000 * t.val + p.val; omega
  | ⟨1, _⟩ => show win0_0.index t (1 : Fin 2) * 64 + 1 * k.val = k.val; omega

/-- Window 1 (2000 entries of a [100000, 1] column): entry p of point t's block is entry 2000·t + p. -/
theorem read_rows1 (t : Fin cfg0.N) (X : S100000x1.Idx → EReal) (p : Fin 2000) :
    (((cfg0.win 1).blk t).view.read (Elt Ideal) X : Vec Ideal S2000x1 .f32) (ix2 p (0 : Fin 1)) = X (ix2 (node t p) (0 : Fin 1)) := by
  obtain ⟨-, -, e0, e1, -⟩ := block_indices t
  rw [View.read_apply]
  show X _ = X _
  refine congrArg X (funext fun a => Fin.ext ?_)
  match a with
  | ⟨0, _⟩ => show win0_1.index t (0 : Fin 2) * 2000 + 1 * p.val = 2000 * t.val + p.val; omega
  | ⟨1, _⟩ => show win0_1.index t (1 : Fin 2) * 1 + 1 * 0 = 0; omega

/-- Window 2 (2000 rows of a [100000, 64] array): row p of point t's block is row 2000·t + p. -/
theorem read_rows2 (t : Fin cfg0.N) (X : S100000x64.Idx → EReal) (p : Fin 2000) (k : Fin 64) :
    (((cfg0.win 2).blk t).view.read (Elt Ideal) X : Vec Ideal S2000x64 .f32) (ix2 p k) = X (ix2 (node t p) k) := by
  obtain ⟨-, -, -, -, e0, e1, -⟩ := block_indices t
  rw [View.read_apply]
  show X _ = X _
  refine congrArg X (funext fun a => Fin.ext ?_)
  match a with
  | ⟨0, _⟩ => show win0_2.index t (0 : Fin 2) * 2000 + 1 * p.val = 2000 * t.val + p.val; omega
  | ⟨1, _⟩ => show win0_2.index t (1 : Fin 2) * 64 + 1 * k.val = k.val; omega

/-- Window 3 (a whole [64, 64] array at every point). -/
theorem read_whole3 (t : Fin cfg0.N) (X : S64x64.Idx → EReal) (k j : Fin 64) :
    (((cfg0.win 3).blk t).view.read (Elt Ideal) X : Vec Ideal S64x64 .f32) (ix2 k j) = X (ix2 k j) := by
  obtain ⟨-, -, -, -, -, -, e0, e1, -⟩ := block_indices t
  rw [View.read_apply]
  show X _ = X _
  refine congrArg X (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

/-- Window 4 (a whole [1, 64] row at every point). -/
theorem read_whole4 (t : Fin cfg0.N) (X : S1x64.Idx → EReal) (j : Fin 64) :
    (((cfg0.win 4).blk t).view.read (Elt Ideal) X : Vec Ideal S1x64 .f32) (ix2 (0 : Fin 1) j) = X (ix2 (0 : Fin 1) j) := by
  obtain ⟨-, -, -, -, -, -, -, -, e0, e1, -⟩ := block_indices t
  rw [View.read_apply]
  show X _ = X _
  refine congrArg X (funext fun a => Fin.ext ?_)
  match a with
  | ⟨0, _⟩ => show win0_4.index t (0 : Fin 2) * 1 + 1 * 0 = 0; omega
  | ⟨1, _⟩ => show win0_4.index t (1 : Fin 2) * 64 + 1 * j.val = j.val; omega

/-- Window 5 (a whole [64, 64] array at every point). -/
theorem read_whole5 (t : Fin cfg0.N) (X : S64x64.Idx → EReal) (k j : Fin 64) :
    (((cfg0.win 5).blk t).view.read (Elt Ideal) X : Vec Ideal S64x64 .f32) (ix2 k j) = X (ix2 k j) := by
  obtain ⟨-, -, -, -, -, -, -, -, -, -, e0, e1, -⟩ := block_indices t
  rw [View.read_apply]
  show X _ = X _
  refine congrArg X (funext fun a => Fin.ext ?_)
  match a with
  | ⟨0, _⟩ => show win0_5.index t (0 : Fin 2) * 64 + 1 * k.val = k.val; omega
  | ⟨1, _⟩ => show win0_5.index t (1 : Fin 2) * 64 + 1 * j.val = j.val; omega

/-! ## The output's block -/

theorem zero_offsets : (![0, 0] : Fin 2 → Nat) = fun _ => 0 := funext fun a => by fin_cases a <;> rfl

/-- Entry (p, q) of the output's block at point t is entry (2000·t + p, q) of the array. -/
theorem out_index (t : Fin cfg0.N) (p : Fin 2000) (q : Fin 64) :
    ((cfg0.win 6).blk t).view.emb (ix2 p q) = (ix2 (node t p) q : S100000x64.Idx) := by
  obtain ⟨-, -, -, -, -, -, -, -, -, -, -, -, e0, e1⟩ := block_indices t
  refine funext fun a => Fin.ext ?_
  match a with
  | ⟨0, _⟩ => show win0_6.index t (0 : Fin 2) * 2000 + 1 * p.val = 2000 * t.val + p.val; omega
  | ⟨1, _⟩ => show win0_6.index t (1 : Fin 2) * 64 + 1 * q.val = q.val; omega

/-- A STORE THAT IS G ENTRY BY ENTRY WRITES BACK G'S BLOCK: for any six input blocks and any array G, if the body's
    payload at (p, q) is G at (2000·t + p, q), then what the body leaves in the output's buffer, cut to the window, is
    point t's block of G. -/
theorem flushed_of_entries (t : Fin cfg0.N) (x0 : Vec Ideal S2000x64 .f32) (x1 : Vec Ideal S2000x1 .f32)
    (x2 : Vec Ideal S2000x64 .f32) (x3 : Vec Ideal S64x64 .f32) (x4 : Vec Ideal S1x64 .f32) (x5 : Vec Ideal S64x64 .f32)
    (G : S100000x64.Idx → EReal)
    (h : ∀ (p : Fin 2000) (q : Fin 64), k0_pay1 (F := Ideal) x1 x0 x2 x3 x5 x4 (ix2 p q) = G (ix2 (node t p) q)) :
    (cfg0.win 6).cut (grid0.coords t) (out0_6 x0 x1 x2 x3 x4 x5) = ((cfg0.win 6).blk t).view.read (Elt Ideal) G := by
  unfold out0_6
  rw [View.canon_unit_zero zero_offsets]
  simp only [View.ld_unit_zero (S := S2000x64) zero_offsets, View.ld_unit_zero (S := S2000x1) zero_offsets,
    View.ld_unit_zero (S := S64x64) zero_offsets, View.ld_unit_zero (S := S1x64) zero_offsets]
  funext j
  obtain ⟨p, q, rfl⟩ : ∃ (p : Fin 2000) (q : Fin 64), j = ix2 p q := ⟨j 0, j 1, eq_ix2 j⟩
  show k0_pay1 (F := Ideal) x1 x0 x2 x3 x5 x4 (ix2 p q) = G (((cfg0.win 6).blk t).view.emb (ix2 p q))
  rw [out_index t p q]
  exact h p q

/-- An index of the array is in point t's block iff each coordinate is in the block's range on its axis. -/
theorem mem_block (t : Fin cfg0.N) (i : S100000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v22).slice (win0_6.rect t)).set ↔ _
  rw [View.set_slice_whole, Rect.mem_set_unit]
  exact Iff.rfl

/-- Row r is in the block of point r / 2000: the blocks cover the array. -/
theorem covered (i : S100000x64.Idx) :
    ∃ t : Fin cfg0.N, (cfg0.win 6).flush t = true ∧ i ∈ ((cfg0.win 6).blk t).view.set := by
  have h0 : (i 0).val < 100000 := (i 0).isLt
  have h1 : (i 1).val < 64 := (i 1).isLt
  have hN : cfg0.N = 50 := N_0
  have hlt : (i 0).val / 2000 < cfg0.N := Nat.lt_of_lt_of_eq (by omega : (i 0).val / 2000 < 50) hN.symm
  obtain ⟨-, -, -, -, -, -, -, -, -, -, -, -, e0, e1⟩ := block_indices ⟨(i 0).val / 2000, hlt⟩
  have e0' : win0_6.index ⟨(i 0).val / 2000, hlt⟩ (0 : Fin 2) = (i 0).val / 2000 := e0
  refine ⟨⟨(i 0).val / 2000, hlt⟩, flush0_6 _, ?_⟩
  rw [mem_block]
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    omega
  | ⟨1, _⟩ =>
    show win0_6.index ⟨(i 0).val / 2000, hlt⟩ (1 : Fin 2) * 64 ≤ (i 1).val
      ∧ (i 1).val < win0_6.index ⟨(i 0).val / 2000, hlt⟩ (1 : Fin 2) * 64 + 64
    omega

end Cert.KernelIdeal.Blocks

end
-- ==== Proof.KernelLayer.lean ====
/-
  The kernel's result array is the layer.

  At point t the body's six input blocks are rows 2000·t … of the aggregated rows, of the count column and of the
  feature rows, and the whole transposed weights and bias row (Proof/BlockReads.lean), whose entries are the shared
  aggregation's and the arguments' (Proof/Aggregation.lean, Proof/HostArrays.lean). With the stored entry read as a
  `cell` (Proof/KernelPayload.lean), entry (p, q) stored at point t is `layer` at (2000·t + p, q); so point t writes
  back its block of `layer`, the blocks cover the array, and the array ends holding `layer` of the aggregated rows, the
  neighbour counts and the arguments.
-/
import proofs.«138229_j55783035240592_2_alg».proof.Proof.Gen.KernelIdeal.Value
import proofs.«138229_j55783035240592_2_alg».proof.Proof.KernelPayload
import proofs.«138229_j55783035240592_2_alg».proof.Proof.SageLayer
import proofs.«138229_j55783035240592_2_alg».proof.Proof.Aggregation
import proofs.«138229_j55783035240592_2_alg».proof.Proof.HostArrays
import proofs.«138229_j55783035240592_2_alg».proof.Proof.BlockReads
import Idealize.ShloMosaic.Lib.Pipeline.Value
import Idealize.ShloMosaic.Lib.ValueIdx

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)
open Cert.SageLayer (cell layer)
open Cert.KernelIdeal.Blocks Cert.KernelIdeal.HostArrays

variable (m : (ℓ : Loc nD τ sig) → Buf (Elt Ideal) ℓ) (ρ : Dev nD → PrngReg)

/-! ## The six input blocks at the arrays the kernel finds -/

/-- Row p of point t's block of the aggregated rows is node 2000·t + p's aggregated row. -/
theorem agg_block (c : Dev nD) (t : Fin cfg0.N) (p : Fin 2000) (k : Fin 64) :
    (iblk m c 0 t : Vec Ideal S2000x64 .f32) (ix2 p k) = (V m c main_v13 : S100000x64.Idx → EReal) (ix2 (node t p) k) :=
  read_rows0 t (V m c main_v13) p k

/-- Entry p of point t's block of the count column is node 2000·t + p's entry of the column. -/
theorem count_block (c : Dev nD) (t : Fin cfg0.N) (p : Fin 2000) :
    (iblk m c 1 t : Vec Ideal S2000x1 .f32) (ix2 p (0 : Fin 1)) = (V m c main_v18 : S100000x1.Idx → EReal) (ix2 (node t p) (0 : Fin 1)) :=
  read_rows1 t (V m c main_v18) p

/-- Row p of point t's block of the feature rows is node 2000·t + p's row of the argument. -/
theorem feature_block (c : Dev nD) (t : Fin cfg0.N) (p : Fin 2000) (k : Fin 64) :
    (iblk m c 2 t : Vec Ideal S2000x64 .f32) (ix2 p k)
      = (m ((c : Thread nD τ).loc main_arg0) : S100000x64.Idx → EReal) (ix2 (node t p) k) :=
  (read_rows2 t (V m c main_arg0) p k).trans (congrFun (V_main_arg0 m c) _)

/-- The transposed left weights are read whole at every point. -/
theorem left_block (c : Dev nD) (t : Fin cfg0.N) (k j : Fin 64) :
    (iblk m c 3 t : Vec Ideal S64x64 .f32) (ix2 k j) = (V m c main_v19 : S64x64.Idx → EReal) (ix2 k j) :=
  read_whole3 t (V m c main_v19) k j

/-- The bias row is read whole at every point. -/
theorem bias_block (c : Dev nD) (t : Fin cfg0.N) (j : Fin 64) :
    (iblk m c 4 t : Vec Ideal S1x64 .f32) (ix2 (0 : Fin 1) j) = (V m c main_v21 : S1x64.Idx → EReal) (ix2 (0 : Fin 1) j) :=
  read_whole4 t (V m c main_v21) j

/-- The transposed right weights are read whole at every point. -/
theorem right_block (c : Dev nD) (t : Fin cfg0.N) (k j : Fin 64) :
    (iblk m c 5 t : Vec Ideal S64x64 .f32) (ix2 k j) = (V m c main_v20 : S64x64.Idx → EReal) (ix2 k j) :=
  read_whole5 t (V m c main_v20) k j

/-! ## What a point writes back, and the array after the run -/

/-- The layer of the aggregated rows and neighbour counts (the shared aggregation of the features and the edges) and the
    arguments. -/
def result (c : Dev nD) : S100000x64.Idx → EReal :=
  layer (Cert.ReferenceIdeal.Read.val_main_v13 (F := Ideal) (m ((c : Thread nD τ).loc main_arg0)) (m ((c : Thread nD τ).loc main_arg1)))
    (Cert.ReferenceIdeal.Read.val_main_v17 (F := Ideal) (m ((c : Thread nD τ).loc main_arg1)))
    (m ((c : Thread nD τ).loc main_arg0)) (m ((c : Thread nD τ).loc main_arg2))
    (m ((c : Thread nD τ).loc main_arg3)) (m ((c : Thread nD τ).loc main_arg4))

/-- Entry (p, q) stored at point t is the layer's entry (2000·t + p, q). -/
theorem stored_entry (c : Dev nD) (t : Fin cfg0.N) (p : Fin 2000) (q : Fin 64) :
    k0_pay1 (F := Ideal) (iblk m c 1 t) (iblk m c 0 t) (iblk m c 2 t) (iblk m c 3 t) (iblk m c 5 t) (iblk m c 4 t) (ix2 p q)
      = result m c (ix2 (node t p) q) := by
  refine (Cert.KernelIdeal.Block.payload_apply (iblk m c 1 t) (iblk m c 0 t) (iblk m c 2 t) (iblk m c 3 t) (iblk m c 5 t)
    (iblk m c 4 t) p q).trans ?_
  unfold result
  rw [Cert.SageLayer.layer_apply]
  exact Cert.SageLayer.cell_congr
    (funext fun k => (agg_block m c t p k).trans (congrFun (Cert.KernelIdeal.Aggregation.aggregated_eq m c) _))
    ((count_block m c t p).trans (count_apply m c (node t p)))
    (funext fun k => feature_block m c t p k)
    (funext fun k => (left_block m c t k q).trans (left_apply m c k q))
    (funext fun k => (right_block m c t k q).trans (right_apply m c k q))
    ((bias_block m c t q).trans (bias_apply m c q))

/-- WHAT POINT t WRITES BACK is its block of the layer. -/
theorem flushed_eq (c : Dev nD) (t : Fin cfg0.N) :
    (dats m 0 c).flushed 6 t = ((cfg0.win 6).blk t).view.read (Elt Ideal) (result m c) :=
  (Cert.KernelIdeal.Value.flushed6 m c t).trans
    (flushed_of_entries t (iblk m c 0 t) (iblk m c 1 t) (iblk m c 2 t) (iblk m c 3 t) (iblk m c 4 t) (iblk m c 5 t) (result m c)
      (stored_entry m c t))

/-- THE ARRAY after the run is the layer. -/
theorem final (c : Dev nD) : (dats m 0 c).arrAt 6 cfg0.N = result m c :=
  (dats m 0 c).arrAt_eq_of_cover 6 (result m c) (fun t _ => flushed_eq m c t) covered

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Layer

end
-- ==== Proof.ReferenceLayer.lean ====
/-
  The reference's result is the layer.

  Read one operation at a time, the reference divides the aggregated rows by the neighbour counts — the larger of each
  count and one, made a column and spread along the rows —, multiplies by the transposed left weights, adds the bias
  spread over the rows, adds the feature rows times the transposed right weights, and takes the larger of that and
  zero. At entry (r, c) the left product reads row r of the mean and column c of the transpose, that is row c of the
  weights; likewise the right product. So the result array is `layer` of the two scatter-added arrays (the aggregated
  rows and the counts, which are not opened here) and the arguments.
-/
import proofs.«138229_j55783035240592_2_alg».proof.Proof.Gen.ReferenceIdeal.Read
import proofs.«138229_j55783035240592_2_alg».proof.Proof.SageLayer

noncomputable section

namespace Cert.ReferenceIdeal.Layer

open Cert.ReferenceIdeal Cert.ReferenceIdeal.Gen Cert.ReferenceIdeal.Read Idealize.ShloMosaic Idealize.ShloMosaic.ValueIdx
open Cert.SageLayer (cell layer one zero)

/-- The left operand of either product at entry (r, c) and contraction index k: entry (r, k). -/
theorem lidx24 (r : Fin 100000) (c k : Fin 64) : lidx_main_v24 (ix2 r c) k = ix2 r k :=
  funext fun a => Fin.ext (by match a with | ⟨0, _⟩ => rfl | ⟨1, _⟩ => rfl)
theorem lidx29 (r : Fin 100000) (c k : Fin 64) : lidx_main_v29 (ix2 r c) k = ix2 r k :=
  funext fun a => Fin.ext (by match a with | ⟨0, _⟩ => rfl | ⟨1, _⟩ => rfl)

/-- The right operand there: entry (k, c) of the transpose, which is entry (c, k) of the weights. -/
theorem ridx24 (r : Fin 100000) (c k : Fin 64) : idx_main_v23 (ridx_main_v24 (ix2 r c) k) = ix2 c k :=
  funext fun a => Fin.ext (by match a with | ⟨0, _⟩ => rfl | ⟨1, _⟩ => rfl)
theorem ridx29 (r : Fin 100000) (c k : Fin 64) : idx_main_v28 (ridx_main_v29 (ix2 r c) k) = ix2 c k :=
  funext fun a => Fin.ext (by match a with | ⟨0, _⟩ => rfl | ⟨1, _⟩ => rfl)

/-- The count that divides entry (r, k): node r's. -/
theorem cidx (r : Fin 100000) (k : Fin 64) : idx_main_v20 (idx_main_v21 (ix2 r k)) = ix1 r :=
  funext fun a => Fin.ext (by match a with | ⟨0, _⟩ => rfl)

/-- The bias entry added at (r, c): entry c. -/
theorem bidx (r : Fin 100000) (c : Fin 64) : idx_main_v25 (idx_main_v26 (ix2 r c)) = ix1 c :=
  funext fun a => Fin.ext (by match a with | ⟨0, _⟩ => rfl)

/-- One term of the left product at (r, c): the mean's entry (r, k) times the left weights' entry (c, k). -/
theorem left_term (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (r : Fin 100000) (c k : Fin 64) :
    val_main_v22 (F := Ideal) x0 x1 (lidx_main_v24 (ix2 r c) k) * val_main_v23 (F := Ideal) x2 (ridx_main_v24 (ix2 r c) k)
      = Ideal.div (val_main_v13 (F := Ideal) x0 x1 (ix2 r k)) (max (val_main_v17 (F := Ideal) x1 (ix1 r)) one) * x2 (ix2 c k) := by
  rw [lidx24, val_main_v22_apply, val_main_v21_apply, val_main_v20_apply, cidx, val_main_v19_apply, val_main_v18_apply,
    val_main_cst_3_apply, val_main_v23_apply, ridx24]
  rfl

/-- One term of the right product at (r, c): the features' entry (r, k) times the right weights' entry (c, k). -/
theorem right_term (x0 : (⟨S100000x64, .f32⟩ : BufTy).Contents (Elt Ideal)) (x4 : (⟨S64x64, .f32⟩ : BufTy).Contents (Elt Ideal))
    (r : Fin 100000) (c k : Fin 64) :
    x0 (lidx_main_v29 (ix2 r c) k) * val_main_v28 (F := Ideal) x4 (ridx_main_v29 (ix2 r c) k) = x0 (ix2 r k) * x4 (ix2 c k) := by
  rw [lidx29, val_main_v28_apply, ridx29]

/-- THE REFERENCE IS THE LAYER of its aggregated rows, its counts and its arguments. -/
theorem result_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v31 (F := Ideal) x0 x1 x2 x3 x4
      = layer (val_main_v13 (F := Ideal) x0 x1) (val_main_v17 (F := Ideal) x1) x0 x2 x3 x4 := by
  funext i
  obtain ⟨r, c, rfl⟩ : ∃ (r : Fin 100000) (c : Fin 64), i = ix2 r c := ⟨i 0, i 1, eq_ix2 i⟩
  rw [Cert.SageLayer.layer_apply, val_main_v31_apply, val_main_v30_apply, val_main_v27_apply, val_main_v24_apply, val_main_v29_apply,
    val_main_v26_apply, val_main_v25_apply, val_main_call0_v0_apply, val_main_call0_cst_apply, bidx]
  unfold cell
  exact congrArg₂ max (congrArg₂ (· + ·) (congrArg₂ (· + ·) (Finset.sum_congr rfl fun k _ => left_term x0 x1 x2 r c k) rfl)
    (Finset.sum_congr rfl fun k _ => right_term x0 x4 r c k)) rfl

end Cert.ReferenceIdeal.Layer

end
-- ==== Proof.lean ====
/-
  The kernel and its reference compute one graph-convolution layer with mean aggregation,

      out(r, c) = max( ( ∑ₖ (agg(r,k) / max(cnt(r), 1)) · W_l(c,k) + b(c) ) + ∑ₖ x(r,k) · W_r(c,k) , 0 ),

  where agg and cnt are the scatter-added neighbour rows and neighbour counts. Both programs compute agg and cnt by the
  same host operations (Proof/Aggregation.lean). The reference then applies the formula to whole arrays
  (Proof/ReferenceLayer.lean); the kernel applies it to blocks of 2000 nodes over 50 grid points, with the counts made
  a column, the weights transposed and the bias made a row beforehand (Proof/KernelPayload.lean: one stored entry;
  Proof/BlockReads.lean, Proof/HostArrays.lean, Proof/KernelLayer.lean: the blocks cover the array). Both results are `layer` (Proof/SageLayer.lean) of the same
  arrays, with the same association of the sums, so they are equal on all extended reals and the finiteness of the
  inputs is not used. The kernel's idealization rewrote nothing, so there is nothing to preserve; the three frames are
  the generated ones.
-/
import proofs.«138229_j55783035240592_2_alg».proof.Defs
import proofs.«138229_j55783035240592_2_alg».proof.Proof.Gen.Kernel
import proofs.«138229_j55783035240592_2_alg».proof.Proof.Gen.Kernel.Frame
import proofs.«138229_j55783035240592_2_alg».proof.Proof.Gen.KernelIdeal
import proofs.«138229_j55783035240592_2_alg».proof.Proof.Gen.KernelIdeal.Frame
import proofs.«138229_j55783035240592_2_alg».proof.Proof.Gen.KernelIdeal.Value
import proofs.«138229_j55783035240592_2_alg».proof.Proof.Gen.ReferenceIdeal
import proofs.«138229_j55783035240592_2_alg».proof.Proof.Gen.ReferenceIdeal.Run
import proofs.«138229_j55783035240592_2_alg».proof.Proof.Gen.ReferenceIdeal.Read
import proofs.«138229_j55783035240592_2_alg».proof.Proof.Gen.Pre_finite_inputs
import proofs.«138229_j55783035240592_2_alg».proof.Proof.SageLayer
import proofs.«138229_j55783035240592_2_alg».proof.Proof.KernelLayer
import proofs.«138229_j55783035240592_2_alg».proof.Proof.ReferenceLayer
import proofs.«138229_j55783035240592_2_alg».proof.Proof.Aggregation
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's both end at the layer of the aggregated
    rows, the neighbour counts and the arguments. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.Layer.result_eq, (hagree c).1, (hagree c).2.1,
    (hagree c).2.2.1, (hagree c).2.2.2.1, (hagree c).2.2.2.2]
  show _ = Cert.KernelIdeal.Layer.result m c
  unfold Cert.KernelIdeal.Layer.result
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
